-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x8192 : Shape := ⟨3, ![8, 32, 8192]⟩
abbrev S8192x8192 : Shape := ⟨2, ![8192, 8192]⟩
abbrev S8192x64x1 : Shape := ⟨3, ![8192, 64, 1]⟩
abbrev S8192 : Shape := ⟨1, ![8192]⟩
abbrev S_ : Shape := ⟨0, ![]⟩

class Facts : Prop where
  bcast_S_S8x32x8192 : S_.BroadcastsInDim S8x32x8192 (![] : Fin 0 → Fin S8x32x8192.rank)
  reducesTo_S8x32x8192_S_d0_1_2 : S8x32x8192.ReducesTo [0, 1, 2] S_
  h_S_ : 0 < S_.numel
  bcast_S_S8192x64x1 : S_.BroadcastsInDim S8192x64x1 (![] : Fin 0 → Fin S8192x64x1.rank)
  reducesTo_S8192x64x1_S_d0_1_2 : S8192x64x1.ReducesTo [0, 1, 2] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg5 : FVec F S8192 .f32) (main_arg6 : FVec F S8192 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192 .f32 := Host.absf main_arg5
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192 .f32 := Host.absf main_arg6
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  main_v28

def fn {F : FTy → Type} [FloatOps F] (main_arg0 : FVec F S8x32x8192 .f32) (main_arg1 : IVec S8192x8192 32) (main_arg2 : FVec F S8192x64x1 .f32) (main_arg3 : FVec F S8192x64x1 .f32) (main_arg4 : FVec F S8192 .f32) (main_arg5 : FVec F S8192 .f32) (main_arg6 : FVec F S8192 .f32) : IVec S_ 1 :=
  let main_v0 : FVec F S8x32x8192 .f32 := Host.absf main_arg0
  let main_cst : FVec F S_ .f32 := constant S_ .f32 0x7F800000#32
  let main_v1 : FVec F S8x32x8192 .f32 := broadcastInDim S8x32x8192 ![] bcast_S_S8x32x8192 main_cst
  let main_v2 : IVec S8x32x8192 1 := cmpf .olt main_v0 main_v1
  let main_c : IVec S_ 1 := constantI S_ 1 1#1
  let main_v3 : IVec S_ 1 := (fun x v => Host.reduce IntOp.andi x v reducesTo_S8x32x8192_S_d0_1_2 h_S_) main_v2 main_c
  let main_v4 : FVec F S8192x64x1 .f32 := Host.absf main_arg2
  let main_cst_0 : FVec F S_ .f32 := constant S_ .f32 0x7F800000#32
  let main_v5 : FVec F S8192x64x1 .f32 := broadcastInDim S8192x64x1 ![] bcast_S_S8192x64x1 main_cst_0
  let main_v6 : IVec S8192x64x1 1 := cmpf .olt main_v4 main_v5
  let main_c_1 : IVec S_ 1 := constantI S_ 1 1#1
  let main_v7 : IVec S_ 1 := (fun x v => Host.reduce IntOp.andi x v reducesTo_S8192x64x1_S_d0_1_2 h_S_) main_v6 main_c_1
  let main_v8 : IVec S_ 1 := andi main_v3 main_v7
  let main_v9 : FVec F S8192x64x1 .f32 := Host.absf main_arg3
  let main_cst_2 : FVec F S_ .f32 := constant S_ .f32 0x7F800000#32
  let main_v10 : FVec F S8192x64x1 .f32 := broadcastInDim S8192x64x1 ![] bcast_S_S8192x64x1 main_cst_2
  let main_v11 : IVec S8192x64x1 1 := cmpf .olt main_v9 main_v10
  let main_c_3 : IVec S_ 1 := constantI S_ 1 1#1
  let main_v12 : IVec S_ 1 := (fun x v => Host.reduce IntOp.andi x v reducesTo_S8192x64x1_S_d0_1_2 h_S_) main_v11 main_c_3
  let main_v13 : IVec S_ 1 := andi main_v8 main_v12
  let main_v14 : FVec F S8192 .f32 := Host.absf main_arg4
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg5 main_arg6 main_v13 main_v16
-- ==== Kernel.lean ====
abbrev S8x32x8192 : Shape := ⟨3, ![8, 32, 8192]⟩
abbrev S8192x8192 : Shape := ⟨2, ![8192, 8192]⟩
abbrev S8192x64x1 : Shape := ⟨3, ![8192, 64, 1]⟩
abbrev S8192 : Shape := ⟨1, ![8192]⟩
abbrev S256x8192 : Shape := ⟨2, ![256, 8192]⟩
abbrev S8192x64 : Shape := ⟨2, ![8192, 64]⟩
abbrev S64x8192 : Shape := ⟨2, ![64, 8192]⟩
abbrev S1x8192 : Shape := ⟨2, ![1, 8192]⟩
abbrev S8192x1 : Shape := ⟨2, ![8192, 1]⟩
abbrev S1024x1024 : Shape := ⟨2, ![1024, 1024]⟩
abbrev S8x1024 : Shape := ⟨2, ![8, 1024]⟩
abbrev S1x1024 : Shape := ⟨2, ![1, 1024]⟩
abbrev S1024x1 : Shape := ⟨2, ![1024, 1]⟩
abbrev S256x1024 : Shape := ⟨2, ![256, 1024]⟩
abbrev S1024x8x128 : Shape := ⟨3, ![1024, 8, 128]⟩
abbrev S1024x8 : Shape := ⟨2, ![1024, 8]⟩
abbrev S1024x8x1 : Shape := ⟨3, ![1024, 8, 1]⟩

abbrev nBuf : Space → Nat
  | .hbm => 17
  | .vmem => 16
  | .smem => 0
  | _ => 0

abbrev bufTy : (tb : Table) → Fin (tcTables nBuf tb) → BufTy
  | .hbm, ⟨0, _⟩ => ⟨S8x32x8192, .f32⟩
  | .hbm, ⟨1, _⟩ => ⟨S8192x8192, .i32⟩
  | .hbm, ⟨2, _⟩ => ⟨S8192x64x1, .f32⟩
  | .hbm, ⟨3, _⟩ => ⟨S8192x64x1, .f32⟩
  | .hbm, ⟨4, _⟩ => ⟨S8192, .f32⟩
  | .hbm, ⟨5, _⟩ => ⟨S8192, .f32⟩
  | .hbm, ⟨6, _⟩ => ⟨S8192, .f32⟩
  | .hbm, ⟨7, _⟩ => ⟨S256x8192, .f32⟩
  | .hbm, ⟨8, _⟩ => ⟨S8192x64, .f32⟩
  | .hbm, ⟨9, _⟩ => ⟨S64x8192, .f32⟩
  | .hbm, ⟨10, _⟩ => ⟨S8192x64, .f32⟩
  | .hbm, ⟨11, _⟩ => ⟨S64x8192, .f32⟩
  | .hbm, ⟨12, _⟩ => ⟨S1x8192, .f32⟩
  | .hbm, ⟨13, _⟩ => ⟨S8192x1, .f32⟩
  | .hbm, ⟨14, _⟩ => ⟨S1x8192, .f32⟩
  | .hbm, ⟨15, _⟩ => ⟨S256x8192, .f32⟩
  | .hbm, ⟨16, _⟩ => ⟨S8x32x8192, .f32⟩
  | .local _ .vmem, ⟨0, _⟩ => ⟨S256x8192, .f32⟩
  | .local _ .vmem, ⟨1, _⟩ => ⟨S1024x1024, .i32⟩
  | .local _ .vmem, ⟨2, _⟩ => ⟨S1024x1024, .i32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S1x1024, .f32⟩
  | .local _ .vmem, ⟨8, _⟩ => ⟨S1x1024, .f32⟩
  | .local _ .vmem, ⟨9, _⟩ => ⟨S1024x1, .f32⟩
  | .local _ .vmem, ⟨10, _⟩ => ⟨S1024x1, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_15 : BitVec 32 := 0#32
  let v42 : BitVec 1 := Scalar.cmpi .ne v41 c0_i32_15
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S256x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S8x32x8192_S256x8192 : S8x32x8192.ShapeCasts S256x8192
  shapeCasts_S8192x64x1_S8192x64 : S8192x64x1.ShapeCasts S8192x64
  transposes_S8192x64_S64x8192_1_0 : S8192x64.Transposes [1, 0] S64x8192
  shapeCasts_S8192_S1x8192 : S8192.ShapeCasts S1x8192
  shapeCasts_S8192_S8192x1 : S8192.ShapeCasts S8192x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x8x128 : S1024x1024.ShapeCasts S1024x8x128
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  transposes_S8x1024_p1_0_S1024x8 : S8x1024.Transposes [1, 0] S1024x8
  shapeCasts_S1024x8_S1024x8x1 : S1024x8.ShapeCasts S1024x8x1
  broadcasts_S1024x8x1_S1024x8x128 : S1024x8x1.Broadcasts S1024x8x128
  shapeCasts_S1024x8x128_S1024x1024 : S1024x8x128.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  bitsLt_bf16_f32 : FTy.bits .bf16 < FTy.bits .f32
  broadcasts_S1x1024_S256x1024 : S1x1024.Broadcasts S256x1024
  shapeCasts_S256x8192_S8x32x8192 : S256x8192.ShapeCasts S8x32x8192
  dot_S256x1024_S1024x1024_S256x1024_1_1_0_0_n_n_wf : DotDims.WF S256x1024 S1024x1024 S256x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S256x1024.size a ≤ S256x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S256x8192.size a
  hwx0_0 : ∀ i : grid0.Coords, EltTy.bits .f32 = 32 ∨ (Rect.block (s := S256x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .i32 = 32 ∨ (Rect.block (s := S8192x8192) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S64x8192.size a
  hwx0_2 : ∀ i : grid0.Coords, EltTy.bits .f32 = 32 ∨ (Rect.block (s := S64x8192) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S64x8192.size a
  hwx0_3 : ∀ i : grid0.Coords, EltTy.bits .f32 = 32 ∨ (Rect.block (s := S64x8192) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x8192.size a
  hwx0_6 : ∀ i : grid0.Coords, EltTy.bits .f32 = 32 ∨ (Rect.block (s := S1x8192) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S256x8192.size a
  hwx0_7 : ∀ i : grid0.Coords, EltTy.bits .f32 = 32 ∨ (Rect.block (s := S256x8192) S256x1024.size (cc0_transform_7 i) (hinb0_7 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_v0) S256x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8x32x8192 : Shape := ⟨3, ![8, 32, 8192]⟩
abbrev S8192x8192 : Shape := ⟨2, ![8192, 8192]⟩
abbrev S8192x64x1 : Shape := ⟨3, ![8192, 64, 1]⟩
abbrev S8192 : Shape := ⟨1, ![8192]⟩
abbrev S8192x64x128 : Shape := ⟨3, ![8192, 64, 128]⟩
abbrev S8192x1 : Shape := ⟨2, ![8192, 1]⟩
abbrev S1x8192 : Shape := ⟨2, ![1, 8192]⟩
abbrev S1x1x8192 : Shape := ⟨3, ![1, 1, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8x32x8192, .f32⟩
  | .hbm, ⟨1, _⟩ => ⟨S8192x8192, .i32⟩
  | .hbm, ⟨2, _⟩ => ⟨S8192x64x1, .f32⟩
  | .hbm, ⟨3, _⟩ => ⟨S8192x64x1, .f32⟩
  | .hbm, ⟨4, _⟩ => ⟨S8192, .f32⟩
  | .hbm, ⟨5, _⟩ => ⟨S8192, .f32⟩
  | .hbm, ⟨6, _⟩ => ⟨S8192, .f32⟩
  | .hbm, ⟨7, _⟩ => ⟨S8192x8192, .f32⟩
  | .hbm, ⟨8, _⟩ => ⟨S8192x64x128, .f32⟩
  | .hbm, ⟨9, _⟩ => ⟨S8192x64x128, .f32⟩
  | .hbm, ⟨10, _⟩ => ⟨S8192x64x128, .f32⟩
  | .hbm, ⟨11, _⟩ => ⟨S8192x64x128, .f32⟩
  | .hbm, ⟨12, _⟩ => ⟨S8192x64x128, .f32⟩
  | .hbm, ⟨13, _⟩ => ⟨S8192x8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S1x8192, .f32⟩
  | .hbm, ⟨18, _⟩ => ⟨S8192x8192, .f32⟩
  | .hbm, ⟨19, _⟩ => ⟨S8192x8192, .f32⟩
  | .hbm, ⟨20, _⟩ => ⟨S8x32x8192, .f32⟩
  | .hbm, ⟨21, _⟩ => ⟨S1x1x8192, .f32⟩
  | .hbm, ⟨22, _⟩ => ⟨S8x32x8192, .f32⟩
  | .hbm, ⟨23, _⟩ => ⟨S8x32x8192, .f32⟩
  | _, _ => ⟨S8x32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  shapeCasts_S8192x8192_S8192x64x128 : S8192x8192.ShapeCasts S8192x64x128
  bcast_S8192x64x1_S8192x64x128_0_1_2 : S8192x64x1.BroadcastsInDim S8192x64x128 (![0, 1, 2] : Fin 3 → Fin S8192x64x128.rank)
  shapeCasts_S8192x64x128_S8192x8192 : S8192x64x128.ShapeCasts S8192x8192
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192_S1x1x8192_2 : S8192.BroadcastsInDim S1x1x8192 (![2] : Fin 1 → Fin S1x1x8192.rank)
  bcast_S1x1x8192_S8x32x8192_0_1_2 : S1x1x8192.BroadcastsInDim S8x32x8192 (![0, 1, 2] : Fin 3 → Fin S8x32x8192.rank)
  dot_S8x32x8192_S8192x8192_S8x32x8192_2_1_01_0_n_n_wf : DotDims.WF S8x32x8192 S8192x8192 S8x32x8192 [2] [1] [0, 1] [0] [] []

variable [Facts₀]

def dot_S8x32x8192_S8192x8192_S8x32x8192_2_1_01_0_n_n : DotDims S8x32x8192 S8192x8192 S8x32x8192 where
  lhsContracting := [2]
  rhsContracting := [1]
  lhsNonContracting := [0, 1]
  rhsNonContracting := [0]
  lhsBatch := []
  rhsBatch := []
  wf := dot_S8x32x8192_S8192x8192_S8x32x8192_2_1_01_0_n_n_wf

class Facts : Prop extends Facts₀ where

variable [Facts]
-- ==== Proof.Spec.lean ====
/-
  The linear layer with group-wise dequantized weights as ONE function of its seven arrays, and the one law
  a tiled evaluation of it needs.

  The weight entry (k, n) is ((code(k, n) − zero(k, g)) · scale(k, g)) · mu2(k) · mu1(n), g = n / 128 the group of
  column n, the products taken in that order; the result at (b, t, k) is the sum over all 8192 columns n of
  x(b, t, n) · weight(k, n), plus bias(k).

  The law: the 8192 columns are eight consecutive blocks of 1024, so the sum over all columns is the sum over the
  blocks of the blocks' sums; and adding the blocks' sums one after the other onto zero gives that same total,
  because addition of extended reals is associative and commutative with zero neutral (no cancellation, no
  distributivity: nothing here needs the summands to be finite).
-/
import Idealize.ShloMosaic.Lib.ValueIdx
import Idealize.ShloMosaic.PureOps.Ideal

noncomputable section

open scoped BigOperators

namespace Cert.Bridge

open Idealize.ShloMosaic Idealize.ShloMosaic.ValueIdx

/-- The activations and the result: 8 × 32 rows of 8192 entries. -/
abbrev SX : Shape := ⟨3, ![8, 32, 8192]⟩
/-- The integer codes: one per weight entry. -/
abbrev SQ : Shape := ⟨2, ![8192, 8192]⟩
/-- Scales and zero points: one per row and group of 128 columns, kept with a trailing axis of extent one. -/
abbrev SG : Shape := ⟨3, ![8192, 64, 1]⟩
/-- The two rescaling vectors and the bias. -/
abbrev SV : Shape := ⟨1, ![8192]⟩

/-- The group of 128 consecutive columns that column `n` belongs to. -/
def grp (n : Fin 8192) : Fin 64 := ⟨n.val / 128, by have := n.isLt; omega⟩

/-- Entry `(k, n)` of the weight matrix: the code minus its group's zero point, times its group's scale, times the row
    factor, times the column factor, in that order. -/
def weight (q : IVec SQ 32) (s z : FVec Ideal SG .f32) (mu1 mu2 : FVec Ideal SV .f32) (k n : Fin 8192) : EReal :=
  ((((FloatOps.sitofp (F := Ideal) .f32 (q (ix2 k n)) : EReal) - z (ix3 k (grp n) 0)) * s (ix3 k (grp n) 0)) * mu2 (ix1 k))
    * mu1 (ix1 n)

/-- One summand of the layer's result at row `(b, t)` and output `k`: column `n`'s product. -/
def term (x : FVec Ideal SX .f32) (q : IVec SQ 32) (s z : FVec Ideal SG .f32) (mu1 mu2 : FVec Ideal SV .f32)
    (b : Fin 8) (t : Fin 32) (k n : Fin 8192) : EReal :=
  x (ix3 b t n) * weight q s z mu1 mu2 k n

/-- The layer: `out[b, t, k] = Σ_n x[b, t, n] · weight[k, n] + bias[k]`. -/
def linear (x : FVec Ideal SX .f32) (q : IVec SQ 32) (s z : FVec Ideal SG .f32) (mu1 mu2 bias : FVec Ideal SV .f32) :
    FVec Ideal SX .f32 :=
  fun i => (∑ n : Fin 8192, term x q s z mu1 mu2 (i 0) (i 1) (i 2) n) + bias (ix1 (i 2))

/-! ## Eight blocks of 1024 columns -/

/-- Column `r` of block `j`: `j · 1024 + r`. -/
def col (j : Fin 8) (r : Fin 1024) : Fin 8192 :=
  ⟨j.val * 1024 + r.val, by have := j.isLt; have := r.isLt; omega⟩

/-- Every column is exactly one `(block, position in the block)`. -/
def colEquiv : Fin 8 × Fin 1024 ≃ Fin 8192 where
  toFun x := col x.1 x.2
  invFun n := (⟨n.val / 1024, by have := n.isLt; omega⟩, ⟨n.val % 1024, Nat.mod_lt _ (by decide)⟩)
  left_inv x := by
    rcases x with ⟨j, r⟩
    have hj := j.isLt
    have hr := r.isLt
    apply Prod.ext
    · apply Fin.ext; show (j.val * 1024 + r.val) / 1024 = j.val; omega
    · apply Fin.ext; show (j.val * 1024 + r.val) % 1024 = r.val; omega
  right_inv n := by
    apply Fin.ext
    show n.val / 1024 * 1024 + n.val % 1024 = n.val
    omega

/-- A sum over all columns is the sum over the blocks of each block's sum. -/
theorem sum_blocks {M : Type*} [AddCommMonoid M] (f : Fin 8192 → M) :
    ∑ n : Fin 8192, f n = ∑ j : Fin 8, ∑ r : Fin 1024, f (col j r) := by
  rw [← Equiv.sum_comp colEquiv f, Fintype.sum_prod_type]
  rfl

/-- Block `j`'s sum, for any natural `j` (zero past the last block). -/
def blk (f : Fin 8192 → EReal) (j : ℕ) : EReal :=
  if h : j < 8 then ∑ r : Fin 1024, f (col ⟨j, h⟩ r) else 0

theorem blk_of_lt (f : Fin 8192 → EReal) (j : Fin 8) : blk f j.val = ∑ r : Fin 1024, f (col j r) := by
  unfold blk
  rw [dif_pos j.isLt]

/-- The running total after blocks `0 … j`, each added in turn onto zero. -/
def chain (b : ℕ → EReal) : ℕ → EReal
  | 0 => 0 + b 0
  | j + 1 => chain b j + b (j + 1)

theorem chain_zero (b : ℕ → EReal) : chain b 0 = 0 + b 0 := rfl
theorem chain_succ (b : ℕ → EReal) (j : ℕ) : chain b (j + 1) = chain b j + b (j + 1) := rfl

/-- The running total is the plain sum of the blocks so far. -/
theorem chain_eq_sum (b : ℕ → EReal) (j : ℕ) : chain b j = ∑ i ∈ Finset.range (j + 1), b i := by
  induction j with
  | zero => rw [chain_zero, zero_add, Finset.sum_range_one]
  | succ j ih => rw [chain_succ, ih, ← Finset.sum_range_succ b (j + 1)]

/-- After the last block the running total is the sum over all 8192 columns. -/
theorem chain_last (f : Fin 8192 → EReal) : chain (blk f) 7 = ∑ n : Fin 8192, f n := by
  rw [chain_eq_sum, Finset.sum_range (fun i => blk f i), sum_blocks]
  exact Finset.sum_congr rfl fun j _ => blk_of_lt f j

end Cert.Bridge

end
-- ==== Proof.RefSide.lean ====
/-
  The reference computes the layer.

  Read index by index, the reference's result at (b, t, k) is the sum over the contracted column n of
  x(b, t, n) times the dequantized, rescaled weight at (k, n), plus bias(k). The weight is built on the grouped view
  [8192, 64, 128] of the code matrix and cast back to [8192, 8192]: column n of row k is member n mod 128 of group
  n / 128, and the two casts undo each other, so the code read is the one at (k, n) and the scale and zero point read
  are those of row k and group n / 128.
-/
import proofs.«171108_j64330020159884_1_alg».proof.Proof.Gen.ReferenceIdeal.Read
import proofs.«171108_j64330020159884_1_alg».proof.Proof.Spec
import Idealize.ShloMosaic.Lib.ValueIdx
import Idealize.ShloMosaic.Lib.Pipeline.Value
import Idealize.ShloMosaic.PureOps.Ideal.Laws

noncomputable section

open scoped BigOperators

namespace Cert.Bridge.RefSide

open Idealize.ShloMosaic Idealize.ShloMosaic.ValueIdx Cert.ReferenceIdeal Cert.ReferenceIdeal.Read Cert.Bridge

/-- The weight matrix the reference builds, at row `k` and column `n`. -/
theorem weight_apply (x1 : IVec SQ 32) (x2 x3 : FVec Ideal SG .f32) (x4 x5 : FVec Ideal SV .f32) (k n : Fin 8192) :
    val_main_v12 (F := Ideal) x1 x2 x3 x4 x5 (ix2 k n) = weight x1 x2 x3 x4 x5 k n := by
  have hk := k.isLt
  have hn := n.isLt
  -- the cast to groups and back reads the code at (k, n)
  have e1 : idx_main_v1 (idx_main_v6 (ix2 k n)) = ix2 k n := funext fun a => Fin.ext (by
    match a with
    | ⟨0, _⟩ =>
      show ((((k.val * 8192 + n.val) / 8192) * 64 + (k.val * 8192 + n.val) / 128 % 64) * 128 + (k.val * 8192 + n.val) % 128) / 8192 = k.val
      omega
    | ⟨1, _⟩ =>
      show ((((k.val * 8192 + n.val) / 8192) * 64 + (k.val * 8192 + n.val) / 128 % 64) * 128 + (k.val * 8192 + n.val) % 128) % 8192 = n.val
      omega)
  -- the zero point and the scale read are those of row k, group n / 128
  have e2 : idx_main_v2 (idx_main_v6 (ix2 k n)) = ix3 k (grp n) 0 := funext fun a => Fin.ext (by
    match a with
    | ⟨0, _⟩ => show (k.val * 8192 + n.val) / 8192 = k.val; omega
    | ⟨1, _⟩ => show (k.val * 8192 + n.val) / 128 % 64 = n.val / 128; omega
    | ⟨2, _⟩ => rfl)
  have e4 : idx_main_v4 (idx_main_v6 (ix2 k n)) = ix3 k (grp n) 0 := e2
  have e7 : idx_main_v7 (idx_main_v8 (ix2 k n)) = ix1 k := funext fun a => Fin.ext (by
    match a with
    | ⟨0, _⟩ => rfl)
  have e10 : idx_main_v10 (idx_main_v11 (ix2 k n)) = ix1 n := funext fun a => Fin.ext (by
    match a with
    | ⟨0, _⟩ => rfl)
  rw [val_main_v12_apply, val_main_v9_apply, val_main_v6_apply, val_main_v5_apply, val_main_v3_apply,
    val_main_v1_apply, val_main_v0_apply, val_main_v2_apply, val_main_v4_apply, val_main_v8_apply,
    val_main_v7_apply, val_main_v11_apply, val_main_v10_apply, e1, e2, e4, e7, e10]
  rfl

/-- The reference's result is the layer of its seven arguments. -/
theorem result_eq (x0 : FVec Ideal SX .f32) (x1 : IVec SQ 32) (x2 x3 : FVec Ideal SG .f32) (x4 x5 x6 : FVec Ideal SV .f32) :
    val_main_v16 (F := Ideal) x0 x1 x2 x3 x4 x5 x6 = linear x0 x1 x2 x3 x4 x5 x6 := by
  funext i
  obtain ⟨b, t, k, rfl⟩ : ∃ (b : Fin 8) (t : Fin 32) (k : Fin 8192), i = ix3 b t k := ⟨i 0, i 1, i 2, eq_ix3 i⟩
  have el : ∀ n : Fin 8192, lidx_main_v13 (ix3 b t k) n = ix3 b t n := fun n => funext fun a => Fin.ext (by
    match a with
    | ⟨0, _⟩ => rfl
    | ⟨1, _⟩ => rfl
    | ⟨2, _⟩ => rfl)
  have er : ∀ n : Fin 8192, ridx_main_v13 (ix3 b t k) n = ix2 k n := fun n => funext fun a => Fin.ext (by
    match a with
    | ⟨0, _⟩ => rfl
    | ⟨1, _⟩ => rfl)
  have eb : idx_main_v14 (idx_main_v15 (ix3 b t k)) = ix1 k := funext fun a => Fin.ext (by
    match a with
    | ⟨0, _⟩ => rfl)
  rw [val_main_v16_apply, val_main_v13_apply, val_main_v15_apply, val_main_v14_apply, eb]
  show (∑ n : Fin 8192, x0 (lidx_main_v13 (ix3 b t k) n) * val_main_v12 (F := Ideal) x1 x2 x3 x4 x5 (ridx_main_v13 (ix3 b t k) n))
      + x6 (ix1 k) = (∑ n : Fin 8192, term x0 x1 x2 x3 x4 x5 b t k n) + x6 (ix1 k)
  refine congrArg (· + x6 (ix1 k)) (Finset.sum_congr rfl fun n _ => ?_)
  rw [el, er, weight_apply]
  rfl

end Cert.Bridge.RefSide

end
-- ==== Proof.Entry.lean ====
/-
  The arrays the kernel's windows read, as the host operations before the launch leave them.

  The activations are flattened from [8, 32, 8192] to 256 rows; scales and zero points lose their trailing unit axis
  and are transposed to [64, 8192] (group by row); the column factors and the bias become single rows [1, 8192], the
  row factors a single column [8192, 1]; the integer codes are passed as they are.
-/
import proofs.«171108_j64330020159884_1_alg».proof.Proof.Gen.KernelIdeal.Frame
import Idealize.ShloMosaic.Lib.Pipeline.Value
import Idealize.ShloMosaic.Lib.StableHlo.Run
import Idealize.ShloMosaic.Lib.Tactic

noncomputable section

namespace Cert.Bridge.Entry

open Idealize.ShloMosaic Idealize.ShloMosaic.TcCoe Idealize.SL.Sem Idealize.ShloMosaic.Tactic
open Cert.KernelIdeal Cert.KernelIdeal.Gen

variable {F : FTy → Type} [FloatOps F]
variable (m : (ℓ : Loc nD τ sig) → Buf (Elt F) ℓ)

/-- The activations, flattened to 256 rows. -/
theorem V_v0 (c : Dev nD) : (V m c main_v0 : S256x8192.Idx → Elt F .f32)
    = shapeCast S256x8192 (m ((c : Thread nD τ).loc main_arg0)) shapeCasts_S8x32x8192_S256x8192 := by
  show StableHlo.after hostOps0 (fun b => m (c, b)) (Proc.devRef .tc main_v0) = _
  after_results
  rfl

/-- The scales, group by row. -/
theorem V_v2 (c : Dev nD) : (V m c main_v2 : S64x8192.Idx → Elt F .f32)
    = transpose S64x8192 [1, 0] (shapeCast S8192x64 (m ((c : Thread nD τ).loc main_arg2)) shapeCasts_S8192x64x1_S8192x64)
        transposes_S8192x64_S64x8192_1_0 := by
  show StableHlo.after hostOps0 (fun b => m (c, b)) (Proc.devRef .tc main_v2) = _
  after_results
  rfl

/-- The zero points, group by row. -/
theorem V_v4 (c : Dev nD) : (V m c main_v4 : S64x8192.Idx → Elt F .f32)
    = transpose S64x8192 [1, 0] (shapeCast S8192x64 (m ((c : Thread nD τ).loc main_arg3)) shapeCasts_S8192x64x1_S8192x64)
        transposes_S8192x64_S64x8192_1_0 := by
  show StableHlo.after hostOps0 (fun b => m (c, b)) (Proc.devRef .tc main_v4) = _
  after_results
  rfl

/-- The column factors, as one row. -/
theorem V_v5 (c : Dev nD) : (V m c main_v5 : S1x8192.Idx → Elt F .f32)
    = shapeCast S1x8192 (m ((c : Thread nD τ).loc main_arg4)) shapeCasts_S8192_S1x8192 := by
  show StableHlo.after hostOps0 (fun b => m (c, b)) (Proc.devRef .tc main_v5) = _
  after_results
  rfl

/-- The row factors, as one column. -/
theorem V_v6 (c : Dev nD) : (V m c main_v6 : S8192x1.Idx → Elt F .f32)
    = shapeCast S8192x1 (m ((c : Thread nD τ).loc main_arg5)) shapeCasts_S8192_S8192x1 := by
  show StableHlo.after hostOps0 (fun b => m (c, b)) (Proc.devRef .tc main_v6) = _
  after_results
  rfl

/-- The bias, as one row. -/
theorem V_v7 (c : Dev nD) : (V m c main_v7 : S1x8192.Idx → Elt F .f32)
    = shapeCast S1x8192 (m ((c : Thread nD τ).loc main_arg6)) shapeCasts_S8192_S1x8192 := by
  show StableHlo.after hostOps0 (fun b => m (c, b)) (Proc.devRef .tc main_v7) = _
  after_results
  rfl

end Cert.Bridge.Entry

end
-- ==== Proof.KernelCases.lean ====
/-
  What one run of the kernel body leaves behind, in each of its three cases.

  The body always ends by storing, over the whole accumulator, the accumulator it read plus the product of its
  activation tile with the transposed weight tile. At the first point of a row of the grid it first fills the
  accumulator with zeros, so the accumulator it reads back is the zero block; at the other points it reads what the
  point before left. At the last point of a row it also stores the result block: the new accumulator plus the bias row.
  The activation tile is the 256 × 1024 window of the resident 256 × 8192 activations that starts at the column offset
  the grid point computes.
-/
import proofs.«171108_j64330020159884_1_alg».proof.Proof.Gen.KernelIdeal.Frame
import Idealize.ShloMosaic.Lib.Pipeline.Value
import Idealize.ShloMosaic.Lib.Tactic

set_option maxRecDepth 16384

noncomputable section

namespace Cert.Bridge.KernelCases

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- The activation tile the body loads at grid point `i`: the resident activations through the 256 × 1024 rectangle at
    the point's column offset. -/
abbrev xtile (i : grid0.Coords) (x0 : Vec F S256x8192 .f32) : Vec F S256x1024 .f32 :=
  View.ld x0 (Rect.unit (k0_off1 i) S256x1024.size (k0_off1_inb i))

/-- The accumulator after a body run that found `acc` in it. -/
abbrev stepAcc (i : grid0.Coords) (x0 : Vec F S256x8192 .f32) (x1 : Vec F S1024x1024 .i32) (x2 : Vec F S8x1024 .f32) (x3 : Vec F S8x1024 .f32) (x4 : Vec F S1x1024 .f32) (x5 : Vec F S1024x1 .f32) (x6 : Vec F S1x1024 .f32) (acc : Vec F S256x1024 .f32) : Vec F S256x1024 .f32 :=
  k0_pay1 (k0_pay4 (xtile i x0) x1 x2 x3 x5 x4 acc)

/-- Between the first and the last point of a row: the accumulator found, plus this point's tile product. -/
theorem sout_B (c : Dev nD) (i : grid0.Coords) (arg2 : Memref sig .tc .vmem S256x8192 .f32) (harg2 : arg2.IsWhole) (arg3 : Memref sig .tc .vmem S1024x1024 .i32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 i) (hc1 : ¬cond0_1 i)
    (x0 : Vec F S256x8192 .f32) (x1 : Vec F S1024x1024 .i32) (x2 : Vec F S8x1024 .f32) (x3 : Vec F S8x1024 .f32) (x4 : Vec F S1x1024 .f32) (x5 : Vec F S1024x1 .f32) (x6 : Vec F S1x1024 .f32) (xs0 : Vec F S256x1024 .f32) :
    sout0_B_0 c i arg2 harg2 arg3 harg3 arg4 harg4 arg5 harg5 arg6 harg6 arg7 harg7 arg8 harg8 arg9 harg9 arg10 harg10 hc0 hc1 x0 x1 x2 x3 x4 x5 x6 xs0 = stepAcc i x0 x1 x2 x3 x4 x5 x6 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hz]
  simp only [View.readAt_eq_ld, harg2.read_unread, harg3.read_unread, harg4.read_unread, harg5.read_unread,
    harg6.read_unread, harg7.read_unread, harg8.read_unread, harg10.read_unread,
    View.ld_unit_zero (S := S1024x1024) hz, View.ld_unit_zero (S := S8x1024) hz, View.ld_unit_zero (S := S1024x1) hz,
    View.ld_unit_zero (S := S1x1024) hz, View.ld_unit_zero (S := S256x1024) hz]
  rfl

/-- At the last point of a row the accumulator is updated the same way. -/
theorem sout_C (c : Dev nD) (i : grid0.Coords) (arg2 : Memref sig .tc .vmem S256x8192 .f32) (harg2 : arg2.IsWhole) (arg3 : Memref sig .tc .vmem S1024x1024 .i32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 i) (hc1 : cond0_1 i)
    (x0 : Vec F S256x8192 .f32) (x1 : Vec F S1024x1024 .i32) (x2 : Vec F S8x1024 .f32) (x3 : Vec F S8x1024 .f32) (x4 : Vec F S1x1024 .f32) (x5 : Vec F S1024x1 .f32) (x6 : Vec F S1x1024 .f32) (xs0 : Vec F S256x1024 .f32) :
    sout0_C_0 c i arg2 harg2 arg3 harg3 arg4 harg4 arg5 harg5 arg6 harg6 arg7 harg7 arg8 harg8 arg9 harg9 arg10 harg10 hc0 hc1 x0 x1 x2 x3 x4 x5 x6 xs0 = stepAcc i x0 x1 x2 x3 x4 x5 x6 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg4.read_unread, harg5.read_unread,
    harg6.read_unread, harg7.read_unread, harg8.read_unread, harg10.read_unread,
    View.ld_unit_zero (S := S1024x1024) hz, View.ld_unit_zero (S := S8x1024) hz, View.ld_unit_zero (S := S1024x1) hz,
    View.ld_unit_zero (S := S1x1024) hz, View.ld_unit_zero (S := S256x1024) hz]
  rfl

/-- At the first point of a row the accumulator read back is the zero block just stored. -/
theorem sout_A (c : Dev nD) (i : grid0.Coords) (arg2 : Memref sig .tc .vmem S256x8192 .f32) (harg2 : arg2.IsWhole) (arg3 : Memref sig .tc .vmem S1024x1024 .i32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .f32) (harg10 : arg10.IsWhole) (hc0 : cond0_0 i) (hc1 : ¬cond0_1 i)
    (x0 : Vec F S256x8192 .f32) (x1 : Vec F S1024x1024 .i32) (x2 : Vec F S8x1024 .f32) (x3 : Vec F S8x1024 .f32) (x4 : Vec F S1x1024 .f32) (x5 : Vec F S1024x1 .f32) (x6 : Vec F S1x1024 .f32) :
    sout0_A_0 c i arg2 harg2 arg3 harg3 arg4 harg4 arg5 harg5 arg6 harg6 arg7 harg7 arg8 harg8 arg9 harg9 arg10 harg10 hc0 hc1 x0 x1 x2 x3 x4 x5 x6 = stepAcc i x0 x1 x2 x3 x4 x5 x6 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S256x1024) hz, View.readCov_unit_zero (S := S256x1024) _ hz]
  simp only [View.readAt_eq_ld, harg2.read_unread, harg3.read_unread, harg4.read_unread, harg5.read_unread,
    harg6.read_unread, harg7.read_unread, harg8.read_unread, harg10.read_unread,
    View.ld_unit_zero (S := S1024x1024) hz, View.ld_unit_zero (S := S8x1024) hz, View.ld_unit_zero (S := S1024x1) hz,
    View.ld_unit_zero (S := S1x1024) hz, View.ld_unit_zero (S := S256x1024) hz]
  rfl

/-- The result block stored at the last point of a row: the updated accumulator, read back, plus the bias row. -/
theorem out_C (c : Dev nD) (i : grid0.Coords) (arg2 : Memref sig .tc .vmem S256x8192 .f32) (harg2 : arg2.IsWhole) (arg3 : Memref sig .tc .vmem S1024x1024 .i32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 i) (hc1 : cond0_1 i)
    (x0 : Vec F S256x8192 .f32) (x1 : Vec F S1024x1024 .i32) (x2 : Vec F S8x1024 .f32) (x3 : Vec F S8x1024 .f32) (x4 : Vec F S1x1024 .f32) (x5 : Vec F S1024x1 .f32) (x6 : Vec F S1x1024 .f32) (xs0 : Vec F S256x1024 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay2 (stepAcc i x0 x1 x2 x3 x4 x5 x6 xs0) x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz, View.readCov_unit_zero (S := S256x1024) _ hz]
  simp only [View.readAt_eq_ld, harg2.read_unread, harg3.read_unread, harg4.read_unread, harg5.read_unread,
    harg6.read_unread, harg7.read_unread, harg8.read_unread, harg10.read_unread,
    View.ld_unit_zero (S := S1024x1024) hz, View.ld_unit_zero (S := S8x1024) hz, View.ld_unit_zero (S := S1024x1) hz,
    View.ld_unit_zero (S := S1x1024) hz, View.ld_unit_zero (S := S256x1024) hz]
  rfl

end Cert.Bridge.KernelCases

end
-- ==== Proof.LibFlatten.lean ====
/-
  Merging the two leading axes of a rank-3 array, read at an index. A [a, b, c] array reshaped to [R, c] (R = a · b)
  keeps its row-major order, so row r = p · b + q of the flat array is the slab (p, q) of the original, column by
  column; and the reshape back reads the flat array at that row. General in the extents.
-/
import Idealize.ShloMosaic.Lib.Pipeline.Value
import Idealize.ShloMosaic.Lib.ValueIdx

namespace Cert.LibFlatten

open Idealize.ShloMosaic Idealize.ShloMosaic.ValueIdx

variable {α : Type}

/-- A `[a, b, c]` array cast to `[R, c]` reads, at `(r, k)` with `r = p · b + q`, the operand at `(p, q, k)`. -/
theorem shapeCast_abc_Rc_apply {a b c R : ℕ} (X : (⟨3, ![a, b, c]⟩ : Shape).Idx → α)
    (h : (⟨3, ![a, b, c]⟩ : Shape).ShapeCasts ⟨2, ![R, c]⟩) (p : Fin a) (q : Fin b) (k : Fin c) (r : Fin R)
    (hr : r.val = p.val * b + q.val) : shapeCast ⟨2, ![R, c]⟩ X h (ix2 r k) = X (ix3 p q k) :=
  shapeCast_apply X h _ _ (by
    rw [Shape.rowMajor_val_three, Shape.rowMajor_val_two]
    show (p.val * b + q.val) * c + k.val = r.val * c + k.val
    rw [hr])

/-- A `[R, c]` array cast to `[a, b, c]` reads, at `(p, q, k)`, the operand at `(r, k)` with `r = p · b + q`. -/
theorem shapeCast_Rc_abc_apply {a b c R : ℕ} (Y : (⟨2, ![R, c]⟩ : Shape).Idx → α)
    (h : (⟨2, ![R, c]⟩ : Shape).ShapeCasts ⟨3, ![a, b, c]⟩) (p : Fin a) (q : Fin b) (k : Fin c) (r : Fin R)
    (hr : r.val = p.val * b + q.val) : shapeCast ⟨3, ![a, b, c]⟩ Y h (ix3 p q k) = Y (ix2 r k) :=
  shapeCast_apply Y h _ _ (by
    rw [Shape.rowMajor_val_two, Shape.rowMajor_val_three]
    show r.val * c + k.val = (p.val * b + q.val) * c + k.val
    rw [hr])

end Cert.LibFlatten
-- ==== Proof.LibUnitAxis.lean ====
/-
  Dropping or adding a trailing axis of extent one, read by coordinates.

  A reshape keeps the row-major order of the entries. An axis of extent one contributes nothing to an entry's
  row-major position, so an `[a, b, 1]` array reshaped to `[a, b]` has at `(p, k)` the entry `(p, k, 0)`, and an
  `[a, 1]` column reshaped to `[a, 1, 1]` has at `(p, 0, 0)` the entry `(p, 0)`. General in the extents.
-/
import Idealize.ShloMosaic.Lib.Pipeline.Value
import Idealize.ShloMosaic.Lib.ValueIdx

namespace Cert.UnitAxis

open Idealize.ShloMosaic Idealize.ShloMosaic.ValueIdx

variable {α : Type}

/-- An `[a, b, 1]` array cast to `[a, b]` reads, at `(p, k)`, the operand at `(p, k, u)` (`u` the one coordinate of
    the unit axis): both have row-major position `p · b + k`. -/
theorem shapeCast_ab1_ab_apply {a b : ℕ} (X : (⟨3, ![a, b, 1]⟩ : Shape).Idx → α)
    (h : (⟨3, ![a, b, 1]⟩ : Shape).ShapeCasts ⟨2, ![a, b]⟩) (p : Fin a) (k : Fin b) (u : Fin 1) :
    shapeCast ⟨2, ![a, b]⟩ X h (ix2 p k) = X (ix3 p k u) :=
  shapeCast_apply X h _ _ (by
    have hu : u.val = 0 := by omega
    rw [Shape.rowMajor_val_three, Shape.rowMajor_val_two]
    show (p.val * b + k.val) * 1 + u.val = p.val * b + k.val
    rw [hu, Nat.mul_one, Nat.add_zero])

/-- An `[a, 1]` column cast to `[a, 1, 1]` reads, at `(p, u, v)`, the operand at `(p, w)` (`u`, `v`, `w` coordinates of
    unit axes): both have row-major position `p`. -/
theorem shapeCast_a1_a11_apply {a : ℕ} (Y : (⟨2, ![a, 1]⟩ : Shape).Idx → α)
    (h : (⟨2, ![a, 1]⟩ : Shape).ShapeCasts ⟨3, ![a, 1, 1]⟩) (p : Fin a) (u v w : Fin 1) :
    shapeCast ⟨3, ![a, 1, 1]⟩ Y h (ix3 p u v) = Y (ix2 p w) :=
  shapeCast_apply Y h _ _ (by
    have hu : u.val = 0 := by omega
    have hv : v.val = 0 := by omega
    have hw : w.val = 0 := by omega
    rw [Shape.rowMajor_val_two, Shape.rowMajor_val_three]
    show p.val * 1 + w.val = (p.val * 1 + u.val) * 1 + v.val
    omega)

end Cert.UnitAxis
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.Blocks.lean ====
/-
  The blocks the kernel reads at a grid point, entry by entry, in terms of the seven argument arrays.

  The grid is 8 × 8; point number t has row coordinate t / 8 (which block of 1024 outputs) and column coordinate
  t mod 8 (which block of 1024 contracted columns). At that point:
    the activation tile at (p, s) is x at row p of the flattened activations — row (p / 32, p mod 32) — and column
      (t mod 8) · 1024 + s;
    the code tile at (r, s) is the code at row (t / 8) · 1024 + r and that column;
    the scale and zero-point tiles at (g, r) are those of that row and group (t mod 8) · 8 + g;
    the column factor at s, the row factor at r and the bias at r are the entries at that column and that row.
-/
import proofs.«171108_j64330020159884_1_alg».proof.Proof.Entry
import proofs.«171108_j64330020159884_1_alg».proof.Proof.KernelCases
import proofs.«171108_j64330020159884_1_alg».proof.Proof.LibFlatten
import proofs.«171108_j64330020159884_1_alg».proof.Proof.LibUnitAxis
import proofs.«171108_j64330020159884_1_alg».proof.Proof.LibKeepdims
import Idealize.ShloMosaic.Lib.ValueIdx
import Idealize.ShloMosaic.Lib.ValueLayout

set_option maxRecDepth 16384

noncomputable section

namespace Cert.Bridge.Blocks

open Idealize.ShloMosaic Idealize.ShloMosaic.TcCoe Idealize.SL.Sem Idealize.ShloMosaic.ValueIdx
open Cert.KernelIdeal Cert.KernelIdeal.Gen Cert.Bridge.KernelCases

variable {F : FTy → Type} [FloatOps F]
variable (m : (ℓ : Loc nD τ sig) → Buf (Elt F) ℓ)

/-! ## The index maps and the grid coordinates, decided over the 64 points -/

theorem coords_facts : ∀ t : Fin cfg0.N, ((grid0.coords t) 0).val = t.val / 8 ∧ ((grid0.coords t) 1).val = t.val % 8 :=
  (by decide +kernel : ∀ t : Fin grid0.N, _)
theorem index0 : ∀ t : Fin cfg0.N, win0_0.index t 0 = 0 ∧ win0_0.index t 1 = 0 :=
  (by decide +kernel : ∀ t : Fin grid0.N, _)
theorem index1 : ∀ t : Fin cfg0.N, win0_1.index t 0 = t.val / 8 ∧ win0_1.index t 1 = t.val % 8 :=
  (by decide +kernel : ∀ t : Fin grid0.N, _)
theorem index2 : ∀ t : Fin cfg0.N, win0_2.index t 0 = t.val % 8 ∧ win0_2.index t 1 = t.val / 8 :=
  (by decide +kernel : ∀ t : Fin grid0.N, _)
theorem index3 : ∀ t : Fin cfg0.N, win0_3.index t 0 = t.val % 8 ∧ win0_3.index t 1 = t.val / 8 :=
  (by decide +kernel : ∀ t : Fin grid0.N, _)
theorem index4 : ∀ t : Fin cfg0.N, win0_4.index t 0 = 0 ∧ win0_4.index t 1 = t.val % 8 :=
  (by decide +kernel : ∀ t : Fin grid0.N, _)
theorem index5 : ∀ t : Fin cfg0.N, win0_5.index t 0 = t.val / 8 ∧ win0_5.index t 1 = 0 :=
  (by decide +kernel : ∀ t : Fin grid0.N, _)
theorem index6 : ∀ t : Fin cfg0.N, win0_6.index t 0 = 0 ∧ win0_6.index t 1 = t.val / 8 :=
  (by decide +kernel : ∀ t : Fin grid0.N, _)
theorem index7 : ∀ t : Fin cfg0.N, win0_7.index t 0 = 0 ∧ win0_7.index t 1 = t.val / 8 :=
  (by decide +kernel : ∀ t : Fin grid0.N, _)

/-! ## Each block read through its window -/

/-- The activation tile: the resident flattened activations at the point's column offset. -/
theorem xtile_apply (c : Dev nD) (t : Fin cfg0.N) (p : Fin 256) (s : Fin 1024) (C : Fin 8192)
    (hC : C.val = t.val % 8 * 1024 + s.val) :
    xtile (grid0.coords t) (iblk m c 0 t) (ix2 p s) = V m c main_v0 (ix2 p C) := by
  show (iblk m c 0 t : Vec F S256x8192 .f32)
    ((Rect.unit (s := S256x8192) (k0_off1 (grid0.coords t)) S256x1024.size (k0_off1_inb (grid0.coords t))).idx (ix2 p s)) = _
  unfold iblk
  rw [View.read_apply]
  show V m c main_v0 _ = V m c main_v0 _
  congr 1
  funext a
  apply Fin.ext
  match a with
  | ⟨0, _⟩ =>
    show win0_0.index t 0 * 256 + 1 * (k0_off1 (grid0.coords t) 0 + 1 * p.val) = p.val
    rw [(index0 t).1, k0_off1_eq]
    show 0 * 256 + 1 * (0 + 1 * p.val) = p.val
    omega
  | ⟨1, _⟩ =>
    show win0_0.index t 1 * 8192 + 1 * (k0_off1 (grid0.coords t) 1 + 1 * s.val) = C.val
    rw [(index0 t).2, k0_off1_eq]
    show 0 * 8192 + 1 * (1024 * ((grid0.coords t) 1).val + 1 * s.val) = C.val
    rw [(coords_facts t).2, hC]
    omega

theorem iblk1_apply (c : Dev nD) (t : Fin cfg0.N) (r s : Fin 1024) (R C : Fin 8192)
    (hR : R.val = t.val / 8 * 1024 + r.val) (hC : C.val = t.val % 8 * 1024 + s.val) :
    (iblk m c 1 t : Vec F S1024x1024 .i32) (ix2 r s) = V m c main_arg1 (ix2 R C) := by
  unfold iblk
  rw [View.read_apply]
  show V m c main_arg1 _ = V m c main_arg1 _
  congr 1
  funext a
  apply Fin.ext
  match a with
  | ⟨0, _⟩ =>
    show win0_1.index t 0 * 1024 + 1 * r.val = R.val
    rw [(index1 t).1, hR]; omega
  | ⟨1, _⟩ =>
    show win0_1.index t 1 * 1024 + 1 * s.val = C.val
    rw [(index1 t).2, hC]; omega

theorem iblk2_apply (c : Dev nD) (t : Fin cfg0.N) (g : Fin 8) (r : Fin 1024) (G : Fin 64) (R : Fin 8192)
    (hG : G.val = t.val % 8 * 8 + g.val) (hR : R.val = t.val / 8 * 1024 + r.val) :
    (iblk m c 2 t : Vec F S8x1024 .f32) (ix2 g r) = V m c main_v2 (ix2 G R) := by
  unfold iblk
  rw [View.read_apply]
  show V m c main_v2 _ = V m c main_v2 _
  congr 1
  funext a
  apply Fin.ext
  match a with
  | ⟨0, _⟩ =>
    show win0_2.index t 0 * 8 + 1 * g.val = G.val
    rw [(index2 t).1, hG]; omega
  | ⟨1, _⟩ =>
    show win0_2.index t 1 * 1024 + 1 * r.val = R.val
    rw [(index2 t).2, hR]; omega

theorem iblk3_apply (c : Dev nD) (t : Fin cfg0.N) (g : Fin 8) (r : Fin 1024) (G : Fin 64) (R : Fin 8192)
    (hG : G.val = t.val % 8 * 8 + g.val) (hR : R.val = t.val / 8 * 1024 + r.val) :
    (iblk m c 3 t : Vec F S8x1024 .f32) (ix2 g r) = V m c main_v4 (ix2 G R) := by
  unfold iblk
  rw [View.read_apply]
  show V m c main_v4 _ = V m c main_v4 _
  congr 1
  funext a
  apply Fin.ext
  match a with
  | ⟨0, _⟩ =>
    show win0_3.index t 0 * 8 + 1 * g.val = G.val
    rw [(index3 t).1, hG]; omega
  | ⟨1, _⟩ =>
    show win0_3.index t 1 * 1024 + 1 * r.val = R.val
    rw [(index3 t).2, hR]; omega

theorem iblk4_apply (c : Dev nD) (t : Fin cfg0.N) (u : Fin 1) (s : Fin 1024) (C : Fin 8192)
    (hC : C.val = t.val % 8 * 1024 + s.val) :
    (iblk m c 4 t : Vec F S1x1024 .f32) (ix2 u s) = V m c main_v5 (ix2 (0 : Fin 1) C) := by
  unfold iblk
  rw [View.read_apply]
  show V m c main_v5 _ = V m c main_v5 _
  congr 1
  funext a
  apply Fin.ext
  match a with
  | ⟨0, _⟩ =>
    show win0_4.index t 0 * 1 + 1 * u.val = 0
    rw [(index4 t).1]; omega
  | ⟨1, _⟩ =>
    show win0_4.index t 1 * 1024 + 1 * s.val = C.val
    rw [(index4 t).2, hC]; omega

theorem iblk5_apply (c : Dev nD) (t : Fin cfg0.N) (r : Fin 1024) (u : Fin 1) (R : Fin 8192)
    (hR : R.val = t.val / 8 * 1024 + r.val) :
    (iblk m c 5 t : Vec F S1024x1 .f32) (ix2 r u) = V m c main_v6 (ix2 R (0 : Fin 1)) := by
  unfold iblk
  rw [View.read_apply]
  show V m c main_v6 _ = V m c main_v6 _
  congr 1
  funext a
  apply Fin.ext
  match a with
  | ⟨0, _⟩ =>
    show win0_5.index t 0 * 1024 + 1 * r.val = R.val
    rw [(index5 t).1, hR]; omega
  | ⟨1, _⟩ =>
    show win0_5.index t 1 * 1 + 1 * u.val = 0
    rw [(index5 t).2]; omega

theorem iblk6_apply (c : Dev nD) (t : Fin cfg0.N) (u : Fin 1) (r : Fin 1024) (R : Fin 8192)
    (hR : R.val = t.val / 8 * 1024 + r.val) :
    (iblk m c 6 t : Vec F S1x1024 .f32) (ix2 u r) = V m c main_v7 (ix2 (0 : Fin 1) R) := by
  unfold iblk
  rw [View.read_apply]
  show V m c main_v7 _ = V m c main_v7 _
  congr 1
  funext a
  apply Fin.ext
  match a with
  | ⟨0, _⟩ =>
    show win0_6.index t 0 * 1 + 1 * u.val = 0
    rw [(index6 t).1]; omega
  | ⟨1, _⟩ =>
    show win0_6.index t 1 * 1024 + 1 * r.val = R.val
    rw [(index6 t).2, hR]; omega

/-! ## The same in terms of the argument arrays -/

/-- The activation tile entry is the activation at row `(b, q)` (with `p = b · 32 + q`) and the global column. -/
theorem x_arg (c : Dev nD) (t : Fin cfg0.N) (p : Fin 256) (s : Fin 1024) (b : Fin 8) (q : Fin 32) (C : Fin 8192)
    (hp : p.val = b.val * 32 + q.val) (hC : C.val = t.val % 8 * 1024 + s.val) :
    xtile (grid0.coords t) (iblk m c 0 t) (ix2 p s) = m ((c : Thread nD τ).loc main_arg0) (ix3 b q C) := by
  refine (xtile_apply m c t p s C hC).trans ?_
  refine (congrFun (Entry.V_v0 m c) (ix2 p C)).trans ?_
  exact Cert.LibFlatten.shapeCast_abc_Rc_apply _ shapeCasts_S8x32x8192_S256x8192 b q C p hp

theorem q_arg (c : Dev nD) (t : Fin cfg0.N) (r s : Fin 1024) (R C : Fin 8192)
    (hR : R.val = t.val / 8 * 1024 + r.val) (hC : C.val = t.val % 8 * 1024 + s.val) :
    (iblk m c 1 t : Vec F S1024x1024 .i32) (ix2 r s) = m ((c : Thread nD τ).loc main_arg1) (ix2 R C) :=
  (iblk1_apply m c t r s R C hR hC).trans (congrFun (V_main_arg1 m c) (ix2 R C))

theorem scale_arg (c : Dev nD) (t : Fin cfg0.N) (g : Fin 8) (r : Fin 1024) (G : Fin 64) (R : Fin 8192)
    (hG : G.val = t.val % 8 * 8 + g.val) (hR : R.val = t.val / 8 * 1024 + r.val) :
    (iblk m c 2 t : Vec F S8x1024 .f32) (ix2 g r) = m ((c : Thread nD τ).loc main_arg2) (ix3 R G (0 : Fin 1)) := by
  refine (iblk2_apply m c t g r G R hG hR).trans ?_
  refine (congrFun (Entry.V_v2 m c) (ix2 G R)).trans ?_
  refine (transpose_ix2_apply _ transposes_S8192x64_S64x8192_1_0 G R).trans ?_
  exact Cert.UnitAxis.shapeCast_ab1_ab_apply _ shapeCasts_S8192x64x1_S8192x64 R G (0 : Fin 1)

theorem zero_arg (c : Dev nD) (t : Fin cfg0.N) (g : Fin 8) (r : Fin 1024) (G : Fin 64) (R : Fin 8192)
    (hG : G.val = t.val % 8 * 8 + g.val) (hR : R.val = t.val / 8 * 1024 + r.val) :
    (iblk m c 3 t : Vec F S8x1024 .f32) (ix2 g r) = m ((c : Thread nD τ).loc main_arg3) (ix3 R G (0 : Fin 1)) := by
  refine (iblk3_apply m c t g r G R hG hR).trans ?_
  refine (congrFun (Entry.V_v4 m c) (ix2 G R)).trans ?_
  refine (transpose_ix2_apply _ transposes_S8192x64_S64x8192_1_0 G R).trans ?_
  exact Cert.UnitAxis.shapeCast_ab1_ab_apply _ shapeCasts_S8192x64x1_S8192x64 R G (0 : Fin 1)

theorem colf_arg (c : Dev nD) (t : Fin cfg0.N) (u : Fin 1) (s : Fin 1024) (C : Fin 8192)
    (hC : C.val = t.val % 8 * 1024 + s.val) :
    (iblk m c 4 t : Vec F S1x1024 .f32) (ix2 u s) = m ((c : Thread nD τ).loc main_arg4) (ix1 C) := by
  refine (iblk4_apply m c t u s C hC).trans ?_
  refine (congrFun (Entry.V_v5 m c) (ix2 (0 : Fin 1) C)).trans ?_
  exact shapeCast_a_1a_apply _ shapeCasts_S8192_S1x8192 (0 : Fin 1) C

theorem rowf_arg (c : Dev nD) (t : Fin cfg0.N) (r : Fin 1024) (u : Fin 1) (R : Fin 8192)
    (hR : R.val = t.val / 8 * 1024 + r.val) :
    (iblk m c 5 t : Vec F S1024x1 .f32) (ix2 r u) = m ((c : Thread nD τ).loc main_arg5) (ix1 R) := by
  refine (iblk5_apply m c t r u R hR).trans ?_
  refine (congrFun (Entry.V_v6 m c) (ix2 R (0 : Fin 1))).trans ?_
  exact Cert.Keepdims.shapeCast_a_a1_apply _ shapeCasts_S8192_S8192x1 R (0 : Fin 1)

theorem bias_arg (c : Dev nD) (t : Fin cfg0.N) (u : Fin 1) (r : Fin 1024) (R : Fin 8192)
    (hR : R.val = t.val / 8 * 1024 + r.val) :
    (iblk m c 6 t : Vec F S1x1024 .f32) (ix2 u r) = m ((c : Thread nD τ).loc main_arg6) (ix1 R) := by
  refine (iblk6_apply m c t u r R hR).trans ?_
  refine (congrFun (Entry.V_v7 m c) (ix2 (0 : Fin 1) R)).trans ?_
  exact shapeCast_a_1a_apply _ shapeCasts_S8192_S1x8192 (0 : Fin 1) R

end Cert.Bridge.Blocks

end
-- ==== Proof.LibGroups.lean ====
/-
  A matrix whose columns are cut into equal groups, read by coordinates.

  An `[a, n]` matrix with `n = b · c` columns viewed as `[a, b, c]` keeps its row-major order, so column
  `g · c + l` of row `p` is entry `(p, g, l)` of the grouped view, in both directions. A per-group quantity is a
  `[a, b]` matrix; giving it a trailing axis of extent one changes no position, and broadcasting that axis over the
  `c` members of a group reads, at `(p, g, l)`, the group's one entry `(p, g, 0)`. General in the extents.
-/
import Idealize.ShloMosaic.Lib.Pipeline.Value
import Idealize.ShloMosaic.Lib.ValueIdx

namespace Cert.LibGroups

open Idealize.ShloMosaic Idealize.ShloMosaic.ValueIdx

variable {α : Type}

/-- An `[a, n]` matrix cast to `[a, b, c]` reads, at `(p, g, l)`, the operand at `(p, col)` with
    `col = g · c + l`: both have row-major position `p · n + col` when `n = b · c`. -/
theorem shapeCast_an_abc_apply {a b c n : ℕ} (hn : n = b * c) (X : (⟨2, ![a, n]⟩ : Shape).Idx → α)
    (h : (⟨2, ![a, n]⟩ : Shape).ShapeCasts ⟨3, ![a, b, c]⟩) (p : Fin a) (g : Fin b) (l : Fin c) (col : Fin n)
    (hcol : col.val = g.val * c + l.val) : shapeCast ⟨3, ![a, b, c]⟩ X h (ix3 p g l) = X (ix2 p col) :=
  shapeCast_apply X h _ _ (by
    rw [Shape.rowMajor_val_two, Shape.rowMajor_val_three]
    show p.val * n + col.val = (p.val * b + g.val) * c + l.val
    rw [hcol, hn, Nat.add_mul, Nat.mul_assoc, Nat.add_assoc])

/-- An `[a, b, c]` array cast to `[a, n]` reads, at `(p, col)` with `col = g · c + l`, the operand at `(p, g, l)`. -/
theorem shapeCast_abc_an_apply {a b c n : ℕ} (hn : n = b * c) (Y : (⟨3, ![a, b, c]⟩ : Shape).Idx → α)
    (h : (⟨3, ![a, b, c]⟩ : Shape).ShapeCasts ⟨2, ![a, n]⟩) (p : Fin a) (g : Fin b) (l : Fin c) (col : Fin n)
    (hcol : col.val = g.val * c + l.val) : shapeCast ⟨2, ![a, n]⟩ Y h (ix2 p col) = Y (ix3 p g l) :=
  shapeCast_apply Y h _ _ (by
    rw [Shape.rowMajor_val_three, Shape.rowMajor_val_two]
    show (p.val * b + g.val) * c + l.val = p.val * n + col.val
    rw [hcol, hn, Nat.add_mul, Nat.mul_assoc, Nat.add_assoc])

/-- An `[a, b]` matrix cast to `[a, b, 1]` reads, at `(p, g, u)`, the operand at `(p, g)`: a trailing axis of
    extent one adds nothing to the row-major position. -/
theorem shapeCast_ab_ab1_apply {a b : ℕ} (X : (⟨2, ![a, b]⟩ : Shape).Idx → α)
    (h : (⟨2, ![a, b]⟩ : Shape).ShapeCasts ⟨3, ![a, b, 1]⟩) (p : Fin a) (g : Fin b) (u : Fin 1) :
    shapeCast ⟨3, ![a, b, 1]⟩ X h (ix3 p g u) = X (ix2 p g) :=
  shapeCast_apply X h _ _ (by
    have hu : u.val = 0 := by omega
    rw [Shape.rowMajor_val_two, Shape.rowMajor_val_three]
    show p.val * b + g.val = (p.val * b + g.val) * 1 + u.val
    rw [hu, Nat.mul_one, Nat.add_zero])

/-- An `[a, b, 1]` array broadcast along its unit axis to `[a, b, c]` reads, at `(p, g, l)`, the one entry
    `(p, g, 0)` of group `g` in row `p`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (g : Fin b) (l : Fin c) :
    broadcastTo ⟨3, ![a, b, c]⟩ v h (ix3 p g l) = v (ix3 p g (0 : Fin 1)) := by
  refine broadcastTo_apply v h (ix3 p g l) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ => rfl

end Cert.LibGroups
-- ==== Proof.LibTransposedRhsDot.lean ====
/-
  The product of an M×K matrix with the transpose of an N×K matrix, read at one entry.

  Both operands are contracted along their last axis, so entry (p, q) of the result is the sum over
  k of left (p, k) times right (q, k). Stated for the dimension record `DotDims.transposedRhs M K N`
  at the exact instance, for the accelerator's product into the zero accumulator and for the host's
  product; general in the three extents. A printed record with contracting axes [1] and [1], free
  axes [0] and [0] and no batch axes is this record (the two differ only in a proof field).
-/
import Idealize.ShloMosaic.Lib.ValueIdx
import Idealize.ShloMosaic.PureOps.Ideal.Laws

noncomputable section

open scoped BigOperators

namespace Cert.LibTransposedRhsDot

open Idealize.ShloMosaic Idealize.ShloMosaic.ValueIdx

variable {M K N : ℕ}

/-- The left operand's index for result entry (p, q) and contraction position k is (p, k). -/
theorem lhsIdx_eq (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a; apply Fin.ext
  match a with
  | ⟨0, _⟩ =>
    show ((DotDims.transposedRhs M K N).lhsIdx (ix2 p q) _ 0).val = p.val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl _ _).trans hk

/-- The right operand's index for result entry (p, q) and contraction position k is (q, k). -/
theorem rhsIdx_eq (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a; apply Fin.ext
  match a with
  | ⟨0, _⟩ =>
    show ((DotDims.transposedRhs M K N).rhsIdx (ix2 p q) _ 0).val = q.val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl _ _).trans hk

/-- The accelerator's product into the zero accumulator: entry (p, q) is the sum over k of
    left (p, k) · right (q, k). -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    matmul (DotDims.transposedRhs M K N) prec l r (constant (F := Ideal) ⟨2, ![M, N]⟩ .f32 0x00000000#32) (ix2 p q)
      = ∑ k : Fin K, l (ix2 p k) * r (ix2 q k) := by
  refine (Ideal.matmul_constant_zero_apply (DotDims.transposedRhs M K N) prec l r (ix2 p q)).trans ?_
  rw [← Equiv.sum_comp (contrEquiv1 (DotDims.transposedRhs M K N) K rfl rfl).symm]
  refine Finset.sum_congr rfl fun k _ => ?_
  rw [lhsIdx_eq, rhsIdx_eq]

/-- The host's product of the same shape: the same sum. -/
theorem dotGeneral_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) := by
  show FloatOps.dotGeneral _ prec _ l r (ix2 p q) = _
  rw [Ideal.dotGeneral_apply, ← Equiv.sum_comp (contrEquiv1 (DotDims.transposedRhs M K N) K rfl rfl).symm]
  refine Finset.sum_congr rfl fun k _ => ?_
  rw [lhsIdx_eq, rhsIdx_eq]

end Cert.LibTransposedRhsDot

end
-- ==== Proof.KernelPay.lean ====
/-
  What the kernel body computes at one grid point, entry by entry.

  At a grid point the body holds a 256 × 1024 tile of the activations, a 1024 × 1024 tile of integer codes, the
  scales and zero points of that tile's 8 column groups (as 8 × 1024 tiles, group by row), a column of 1024 row
  factors and a row of 1024 column factors. It builds the weight tile entry (r, s) as
  ((code(r, s) − zero(s / 128, r)) · scale(s / 128, r)) · rowfactor(r) · colfactor(s), and adds to the accumulator,
  at (p, r), the sum over s of activation(p, s) · weight(r, s): the product of the activation tile with the
  transpose of the weight tile. The last point of a row of the grid adds the bias row to the accumulator.
-/
import proofs.«171108_j64330020159884_1_alg».proof.Proof.Gen.KernelIdeal.Skeleton
import proofs.«171108_j64330020159884_1_alg».proof.Proof.LibGroups
import proofs.«171108_j64330020159884_1_alg».proof.Proof.LibTransposedRhsDot
import proofs.«171108_j64330020159884_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Bridge.KernelPay

open Idealize.ShloMosaic Idealize.ShloMosaic.ValueIdx Cert.KernelIdeal Cert.KernelIdeal.Gen

/-- The column group, within a tile of 1024 columns, of the tile's column `s`. -/
def tgrp (s : Fin 1024) : Fin 8 := ⟨s.val / 128, by have := s.isLt; omega⟩
/-- Its position within that group. -/
def tlane (s : Fin 1024) : Fin 128 := ⟨s.val % 128, Nat.mod_lt _ (by decide)⟩

/-- Entry `(r, s)` of the weight tile, from the tiles the body loads. -/
def tileWeight (q : Vec Ideal S1024x1024 .i32) (sc zp : Vec Ideal S8x1024 .f32) (rowf : Vec Ideal S1024x1 .f32)
    (colf : Vec Ideal S1x1024 .f32) (r s : Fin 1024) : EReal :=
  ((((FloatOps.sitofp (F := Ideal) .f32 (q (ix2 r s)) : EReal) - zp (ix2 (tgrp s) r)) * sc (ix2 (tgrp s) r))
    * rowf (ix2 r (0 : Fin 1))) * colf (ix2 (0 : Fin 1) s)

/-- The weight tile as the body spells it: the codes as floats viewed in groups, the transposed zero points and scales
    spread over each group's members, the grouped view flattened again, then the two rescalings. -/
def wtile (v8 : Vec Ideal S1024x1024 .i32) (v11 v15 : Vec Ideal S8x1024 .f32) (v24 : Vec Ideal S1024x1 .f32)
    (v26 : Vec Ideal S1x1024 .f32) : FVec Ideal S1024x1024 .f32 :=
  mulf (mulf
    (shapeCast S1024x1024
      (mulf
        (subf (shapeCast S1024x8x128 (sitofp (F := Ideal) .f32 v8) shapeCasts_S1024x1024_S1024x8x128)
          (broadcastTo S1024x8x128
            (shapeCast S1024x8x1 (transpose S1024x8 [1, 0] (shapeCast S8x1024 v15 shapeCasts_S8x1024_S8x1024) transposes_S8x1024_p1_0_S1024x8)
              shapeCasts_S1024x8_S1024x8x1) broadcasts_S1024x8x1_S1024x8x128))
        (broadcastTo S1024x8x128
          (shapeCast S1024x8x1 (transpose S1024x8 [1, 0] (shapeCast S8x1024 v11 shapeCasts_S8x1024_S8x1024) transposes_S8x1024_p1_0_S1024x8)
            shapeCasts_S1024x8_S1024x8x1) broadcasts_S1024x8x1_S1024x8x128))
      shapeCasts_S1024x8x128_S1024x1024)
    (broadcastTo S1024x1024 (shapeCast S1024x1 v24 shapeCasts_S1024x1_S1024x1) broadcasts_S1024x1_S1024x1024))
    (broadcastTo S1024x1024 (shapeCast S1x1024 v26 shapeCasts_S1x1024_S1x1024) broadcasts_S1x1024_S1024x1024)

/-- A per-group tile (8 × 1024, group by row) transposed, given a trailing unit axis and spread over the 128 members
    of each group, read at row `r`, group `g`, member `l`: the tile's entry for group `g` and row `r`. -/
theorem spread_apply (v : Vec Ideal S8x1024 .f32) (r : Fin 1024) (g : Fin 8) (l : Fin 128) :
    broadcastTo S1024x8x128
        (shapeCast S1024x8x1 (transpose S1024x8 [1, 0] (shapeCast S8x1024 v shapeCasts_S8x1024_S8x1024) transposes_S8x1024_p1_0_S1024x8)
          shapeCasts_S1024x8_S1024x8x1) broadcasts_S1024x8x1_S1024x8x128 (ix3 r g l)
      = v (ix2 g r) := by
  refine (LibGroups.broadcastTo_ab1_abc_apply _ broadcasts_S1024x8x1_S1024x8x128 r g l).trans ?_
  refine (LibGroups.shapeCast_ab_ab1_apply _ shapeCasts_S1024x8_S1024x8x1 r g (0 : Fin 1)).trans ?_
  refine (transpose_ix2_apply _ transposes_S8x1024_p1_0_S1024x8 r g).trans ?_
  rw [shapeCast_self]

/-- The weight tile at `(r, s)`. -/
theorem wtile_apply (v8 : Vec Ideal S1024x1024 .i32) (v11 v15 : Vec Ideal S8x1024 .f32) (v24 : Vec Ideal S1024x1 .f32)
    (v26 : Vec Ideal S1x1024 .f32) (r s : Fin 1024) :
    wtile v8 v11 v15 v24 v26 (ix2 r s) = tileWeight v8 v11 v15 v24 v26 r s := by
  have hs := s.isLt
  have hcol : s.val = (tgrp s).val * 128 + (tlane s).val := by
    show s.val = s.val / 128 * 128 + s.val % 128
    omega
  -- the flattened grouped product at column s is the grouped product at (group, member)
  have h1 := LibGroups.shapeCast_abc_an_apply (a := 1024) (b := 8) (c := 128) (n := 1024) (by decide)
    (mulf
        (subf (shapeCast S1024x8x128 (sitofp (F := Ideal) .f32 v8) shapeCasts_S1024x1024_S1024x8x128)
          (broadcastTo S1024x8x128
            (shapeCast S1024x8x1 (transpose S1024x8 [1, 0] (shapeCast S8x1024 v15 shapeCasts_S8x1024_S8x1024) transposes_S8x1024_p1_0_S1024x8)
              shapeCasts_S1024x8_S1024x8x1) broadcasts_S1024x8x1_S1024x8x128))
        (broadcastTo S1024x8x128
          (shapeCast S1024x8x1 (transpose S1024x8 [1, 0] (shapeCast S8x1024 v11 shapeCasts_S8x1024_S8x1024) transposes_S8x1024_p1_0_S1024x8)
            shapeCasts_S1024x8_S1024x8x1) broadcasts_S1024x8x1_S1024x8x128))
    shapeCasts_S1024x8x128_S1024x1024 r (tgrp s) (tlane s) s hcol
  -- the grouped view of the codes at (group, member) is the code at column s
  have h2 := LibGroups.shapeCast_an_abc_apply (a := 1024) (b := 8) (c := 128) (n := 1024) (by decide)
    (sitofp (F := Ideal) .f32 v8) shapeCasts_S1024x1024_S1024x8x128 r (tgrp s) (tlane s) s hcol
  have h3 := spread_apply v15 r (tgrp s) (tlane s)
  have h4 := spread_apply v11 r (tgrp s) (tlane s)
  have h5 := Cert.Keepdims.broadcastTo_a1_ab_apply (shapeCast S1024x1 v24 shapeCasts_S1024x1_S1024x1)
    broadcasts_S1024x1_S1024x1024 r s
  have h6 := broadcastTo_1b_ab_apply (shapeCast S1x1024 v26 shapeCasts_S1x1024_S1x1024)
    broadcasts_S1x1024_S1024x1024 r s
  unfold wtile tileWeight
  rw [mulf_apply, mulf_apply, h1, mulf_apply, subf_apply, h2, h3, h4, h5, h6, shapeCast_self, shapeCast_self]
  rfl

/-- The accumulated value the body stores back: the accumulator it found plus the tile product. -/
theorem pay4_eq (v6 : Vec Ideal S256x1024 .f32) (v8 : Vec Ideal S1024x1024 .i32) (v11 v15 : Vec Ideal S8x1024 .f32)
    (v24 : Vec Ideal S1024x1 .f32) (v26 : Vec Ideal S1x1024 .f32) (v34 : Vec Ideal S256x1024 .f32) :
    k0_pay4 (F := Ideal) v6 v8 v11 v15 v24 v26 v34
      = addf v34 (matmul dot_S256x1024_S1024x1024_S256x1024_1_1_0_0_n_n none
          (truncf .bf16 (shapeCast S256x1024 v6 shapeCasts_S256x1024_S256x1024) bitsLt_bf16_f32)
          (truncf .bf16 (wtile v8 v11 v15 v24 v26) bitsLt_bf16_f32)
          (constant S256x1024 .f32 0x00000000#32)) := rfl

/-- The printed dimension record is the product of a matrix with a transposed matrix. -/
theorem dot_eq : dot_S256x1024_S1024x1024_S256x1024_1_1_0_0_n_n = DotDims.transposedRhs 256 1024 1024 := rfl

/-- The accumulated value at `(p, r)`: what was there plus the sum over the tile's columns. -/
theorem pay4_apply (v6 : Vec Ideal S256x1024 .f32) (v8 : Vec Ideal S1024x1024 .i32) (v11 v15 : Vec Ideal S8x1024 .f32)
    (v24 : Vec Ideal S1024x1 .f32) (v26 : Vec Ideal S1x1024 .f32) (v34 : Vec Ideal S256x1024 .f32)
    (p : Fin 256) (r : Fin 1024) :
    k0_pay4 (F := Ideal) v6 v8 v11 v15 v24 v26 v34 (ix2 p r)
      = v34 (ix2 p r) + ∑ s : Fin 1024, v6 (ix2 p s) * tileWeight v8 v11 v15 v24 v26 r s := by
  rw [pay4_eq, addf_apply, dot_eq]
  refine congrArg (v34 (ix2 p r) + ·) ?_
  refine (Cert.LibTransposedRhsDot.matmul_zero_apply none _ _ p r).trans ?_
  refine Finset.sum_congr rfl fun s _ => ?_
  rw [truncf_apply, truncf_apply, shapeCast_self, wtile_apply]

/-- The zero fill of the accumulator. -/
theorem pay3_apply (j : S256x1024.Idx) : k0_pay3 (F := Ideal) j = 0 := by
  show shapeCast S256x1024 (broadcast S256x1024 (Scalar.ofBits (F := Ideal) .f32 0x00000000#32)) shapeCasts_S256x1024_S256x1024 j = 0
  rw [shapeCast_self]
  exact Ideal.ofBits_zero_f32

/-- The value stored back into the accumulator is the accumulated value itself. -/
theorem pay1_eq (v36 : FVec Ideal S256x1024 .f32) : k0_pay1 (F := Ideal) v36 = v36 :=
  shapeCast_self v36 _

/-- The result block: the accumulator plus the bias row, spread over the 256 rows. -/
theorem pay2_apply (v43 : Vec Ideal S256x1024 .f32) (v44 : Vec Ideal S1x1024 .f32) (p : Fin 256) (r : Fin 1024) :
    k0_pay2 (F := Ideal) v43 v44 (ix2 p r) = v43 (ix2 p r) + v44 (ix2 (0 : Fin 1) r) := by
  show addf (F := Ideal) (φ := .f32) v43 (broadcastTo S256x1024
    (shapeCast S1x1024 v44 shapeCasts_S1x1024_S1x1024 : FVec Ideal S1x1024 .f32) broadcasts_S1x1024_S256x1024) (ix2 p r) = _
  rw [addf_apply, broadcastTo_1b_ab_apply, shapeCast_self]

end Cert.Bridge.KernelPay

end
-- ==== Proof.Accumulate.lean ====
/-
  The accumulator across a row of the grid, and the block the kernel finally stores.

  At grid point t (row i = t / 8, column j = t mod 8) the tile product at (p, r) is the sum, over the 1024 columns
  of block j, of the layer's summands for activation row p and output i · 1024 + r: each factor the body reads from
  its tiles is the corresponding entry of the argument arrays. So the accumulator after point t holds, at (p, r), the
  running total of blocks 0 … j added in turn onto zero (induction on the point: the first point of a grid row starts
  from the zero fill, every other point from what the point before left). At j = 7 that total is the sum over all
  8192 columns, and the stored block adds the bias: the layer's value.
-/
import proofs.«171108_j64330020159884_1_alg».proof.Proof.Blocks
import proofs.«171108_j64330020159884_1_alg».proof.Proof.KernelPay
import proofs.«171108_j64330020159884_1_alg».proof.Proof.Spec

set_option maxRecDepth 16384

noncomputable section

open scoped BigOperators

namespace Cert.Bridge.Accumulate

open Idealize.ShloMosaic Idealize.ShloMosaic.TcCoe Idealize.SL.Sem Idealize.ShloMosaic.ValueIdx
open Cert.KernelIdeal Cert.KernelIdeal.Gen
open Cert.Bridge Cert.Bridge.KernelPay Cert.Bridge.KernelCases Cert.Bridge.Blocks

variable (m : (ℓ : Loc nD τ sig) → Buf (Elt Ideal) ℓ)

/-- Row `p` of the flattened activations is row `(p / 32, p mod 32)`. -/
def prow (p : Fin 256) : Fin 8 := ⟨p.val / 32, by have := p.isLt; omega⟩
def pcol (p : Fin 256) : Fin 32 := ⟨p.val % 32, Nat.mod_lt _ (by decide)⟩
/-- Output `r` of the block of 1024 outputs that grid row `i` computes. -/
def rowOf (i : ℕ) (r : Fin 1024) : Fin 8192 :=
  ⟨i % 8 * 1024 + r.val, by have := r.isLt; have := Nat.mod_lt i (by decide : 0 < 8); omega⟩

/-- The layer's summands for activation row `p` and output `r` of grid row `i`, as a function of the column. -/
def rowTerm (c : Dev nD) (i : ℕ) (p : Fin 256) (r : Fin 1024) : Fin 8192 → EReal :=
  fun n => term (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (prow p) (pcol p) (rowOf i r) n

/-- One factor pair of the tile product is one summand of the layer. -/
theorem tile_term (c : Dev nD) (t : Fin cfg0.N) (p : Fin 256) (r s : Fin 1024) (j : Fin 8) (hj : j.val = t.val % 8) :
    xtile (grid0.coords t) (iblk m c 0 t) (ix2 p s)
        * tileWeight (iblk m c 1 t) (iblk m c 2 t) (iblk m c 3 t) (iblk m c 5 t) (iblk m c 4 t) r s
      = rowTerm m c (t.val / 8) p r (col j s) := by
  have ht : t.val < 64 := lt_of_lt_of_eq t.isLt (show cfg0.N = 64 from N_0)
  have hs := s.isLt
  have hR : (rowOf (t.val / 8) r).val = t.val / 8 * 1024 + r.val := by
    show t.val / 8 % 8 * 1024 + r.val = _
    omega
  have hC : (col j s).val = t.val % 8 * 1024 + s.val := by
    show j.val * 1024 + s.val = _
    rw [hj]
  have hG : (grp (col j s)).val = t.val % 8 * 8 + (tgrp s).val := by
    show (j.val * 1024 + s.val) / 128 = t.val % 8 * 8 + s.val / 128
    rw [hj]; omega
  have hp : p.val = (prow p).val * 32 + (pcol p).val := by
    show p.val = p.val / 32 * 32 + p.val % 32
    omega
  unfold tileWeight rowTerm term weight
  rw [x_arg m c t p s (prow p) (pcol p) (col j s) hp hC, q_arg m c t r s (rowOf (t.val / 8) r) (col j s) hR hC,
    zero_arg m c t (tgrp s) r (grp (col j s)) (rowOf (t.val / 8) r) hG hR,
    scale_arg m c t (tgrp s) r (grp (col j s)) (rowOf (t.val / 8) r) hG hR,
    rowf_arg m c t r (0 : Fin 1) (rowOf (t.val / 8) r) hR, colf_arg m c t (0 : Fin 1) s (col j s) hC]

/-- One body run adds to the accumulator, at `(p, r)`, the point's block of the layer's summands. -/
theorem step_apply (c : Dev nD) (t : Fin cfg0.N) (acc : Vec Ideal S256x1024 .f32) (p : Fin 256) (r : Fin 1024) :
    stepAcc (grid0.coords t) (iblk m c 0 t) (iblk m c 1 t) (iblk m c 2 t) (iblk m c 3 t) (iblk m c 4 t) (iblk m c 5 t) (iblk m c 6 t) acc (ix2 p r)
      = acc (ix2 p r) + blk (rowTerm m c (t.val / 8) p r) (t.val % 8) := by
  have hj : t.val % 8 < 8 := Nat.mod_lt _ (by decide)
  unfold stepAcc
  rw [pay1_eq]
  refine (pay4_apply (xtile (grid0.coords t) (iblk m c 0 t)) (iblk m c 1 t) (iblk m c 2 t) (iblk m c 3 t) (iblk m c 5 t)
    (iblk m c 4 t) acc p r).trans ?_
  unfold blk
  rw [dif_pos hj]
  exact congrArg (acc (ix2 p r) + ·) (Finset.sum_congr rfl fun s _ => tile_term m c t p r s ⟨t.val % 8, hj⟩ rfl)

/-- At the first point of a grid row the accumulator ends at zero plus the first block. -/
theorem acc_first (c : Dev nD) (t : Fin cfg0.N) (h0 : t.val % 8 = 0) (p : Fin 256) (r : Fin 1024) :
    (outsAt0 m c t.val t.isLt).2 (ix2 p r) = chain (blk (rowTerm m c (t.val / 8) p r)) (t.val % 8) := by
  have h1 : ¬t.val % 8 = 7 := by omega
  rw [outsAt0_A m c t h0 h1]
  dsimp only
  refine (congrFun (sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    ((hcond0_0 t).mpr h0) (fun h => h1 ((hcond0_1 t).mp h)) (iblk m c 0 t) (iblk m c 1 t) (iblk m c 2 t) (iblk m c 3 t) (iblk m c 4 t) (iblk m c 5 t) (iblk m c 6 t)) (ix2 p r)).trans ?_
  refine (step_apply m c t (k0_pay3 (F := Ideal)) p r).trans ?_
  rw [pay3_apply, h0, chain_zero]

/-- At every other point the accumulator is what the point before left plus this point's block. -/
theorem acc_next (c : Dev nD) (t : Fin cfg0.N) (h0 : ¬t.val % 8 = 0) (p : Fin 256) (r : Fin 1024) :
    (outsAt0 m c t.val t.isLt).2 (ix2 p r)
      = (outsAt0 m c (t.val - 1) (Nat.lt_of_le_of_lt (Nat.sub_le _ _) t.isLt)).2 (ix2 p r)
        + blk (rowTerm m c (t.val / 8) p r) (t.val % 8) := by
  by_cases h1 : t.val % 8 = 7
  · rw [outsAt0_C m c t h0 h1]
    dsimp only
    refine (congrFun (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (fun h => h0 ((hcond0_0 t).mp h)) ((hcond0_1 t).mpr h1) (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)).2) (ix2 p r)).trans ?_
    exact step_apply m c t _ p r
  · rw [outsAt0_B m c t h0 h1]
    dsimp only
    refine (congrFun (sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (fun h => h0 ((hcond0_0 t).mp h)) (fun h => h1 ((hcond0_1 t).mp h)) (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)).2) (ix2 p r)).trans ?_
    exact step_apply m c t _ p r

/-- The accumulator after point `n`: the running total of the blocks so far of grid row `n / 8`. -/
theorem acc_eq (c : Dev nD) : ∀ (n : ℕ) (hn : n < cfg0.N) (p : Fin 256) (r : Fin 1024),
    (outsAt0 m c n hn).2 (ix2 p r) = chain (blk (rowTerm m c (n / 8) p r)) (n % 8) := by
  intro n
  induction n with
  | zero => intro hn p r; exact acc_first m c ⟨0, hn⟩ (Nat.zero_mod 8) p r
  | succ n ih =>
    intro hn p r
    by_cases h0 : (n + 1) % 8 = 0
    · exact acc_first m c ⟨n + 1, hn⟩ h0 p r
    · refine (acc_next m c ⟨n + 1, hn⟩ h0 p r).trans ?_
      show (outsAt0 m c n _).2 (ix2 p r) + blk (rowTerm m c ((n + 1) / 8) p r) ((n + 1) % 8) = _
      rw [ih (Nat.lt_of_succ_lt hn) p r]
      have e1 : (n + 1) / 8 = n / 8 := by omega
      have e2 : (n + 1) % 8 = n % 8 + 1 := by omega
      rw [e1, e2, chain_succ]

/-- The last block completes the sum over all columns. -/
theorem chain_complete (f : Fin 8192 → EReal) : chain (blk f) 6 + blk f 7 = ∑ n : Fin 8192, f n :=
  chain_last f

/-- The block stored at the last point of a grid row is the layer, at the rows and outputs of that block. -/
theorem out_eq (c : Dev nD) (t : Fin cfg0.N) (h1 : t.val % 8 = 7) (p : Fin 256) (r : Fin 1024) :
    (outsAt0 m c t.val t.isLt).1 (ix2 p r)
      = linear (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (prow p) (pcol p) (rowOf (t.val / 8) r)) := by
  have ht : t.val < 64 := lt_of_lt_of_eq t.isLt (show cfg0.N = 64 from N_0)
  have h0 : ¬t.val % 8 = 0 := by omega
  have hR : (rowOf (t.val / 8) r).val = t.val / 8 * 1024 + r.val := by
    show t.val / 8 % 8 * 1024 + r.val = _
    omega
  have e1 : (t.val - 1) / 8 = t.val / 8 := by omega
  have e2 : (t.val - 1) % 8 = 6 := by omega
  rw [outsAt0_C m c t h0 h1]
  dsimp only
  refine (congrFun (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (fun h => h0 ((hcond0_0 t).mp h)) ((hcond0_1 t).mpr h1) (iblk m c 0 t) (iblk m c 1 t) (iblk m c 2 t) (iblk m c 3 t) (iblk m c 4 t) (iblk m c 5 t) (iblk m c 6 t)
    (outsAt0 m c (t.val - 1) (Nat.lt_of_le_of_lt (Nat.sub_le _ _) t.isLt)).2) (ix2 p r)).trans ?_
  refine (pay2_apply _ (iblk m c 6 t) p r).trans ?_
  rw [step_apply m c t _ p r, acc_eq m c (t.val - 1) _ p r, bias_arg m c t (0 : Fin 1) r (rowOf (t.val / 8) r) hR,
    e1, e2, h1, chain_complete]
  rfl

end Cert.Bridge.Accumulate

end
-- ==== Proof.KernelRun.lean ====
/-
  The kernel's result array, and its run.

  Output block (0, i) is written back once, at the last point of grid row i, and holds the layer's values for all
  256 activation rows and outputs i · 1024 … i · 1024 + 1023; the eight blocks tile the 256 × 8192 result, so after
  the run the whole result array is the layer read at flattened rows: entry (p, k) is the layer at
  (p / 32, p mod 32, k). The host reshape after the region restores the [8, 32, 8192] arrangement, which is the layer
  itself.
-/
import proofs.«171108_j64330020159884_1_alg».proof.Proof.Accumulate
import Idealize.ShloMosaic.Lib.Pipeline.Value
import Idealize.ShloMosaic.Lib.StableHlo.Run
import Idealize.ShloMosaic.Lib.Tactic

set_option maxRecDepth 16384

noncomputable section

namespace Cert.Bridge.KernelRun

open Idealize.ShloMosaic Idealize.ShloMosaic.TcCoe Idealize.SL.Sem Idealize.ShloMosaic.Tactic Idealize.ShloMosaic.ValueIdx
open Idealize.ShloMosaic.Pipeline (Dat)
open Cert.KernelIdeal Cert.KernelIdeal.Gen
open Cert.Bridge Cert.Bridge.Accumulate Cert.Bridge.Blocks

variable (m : (ℓ : Loc nD τ sig) → Buf (Elt Ideal) ℓ) (ρ : Dev nD → PrngReg)

/-- The layer of the argument arrays as core `c` holds them. -/
abbrev layer (c : Dev nD) : FVec Ideal SX .f32 :=
  linear (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The layer at flattened rows: what the 256 × 8192 result array ends holding. -/
def flat (c : Dev nD) : Buf (Elt Ideal) ((c : Thread nD τ).loc main_v8) :=
  (fun i => layer m c (ix3 (prow (i 0)) (pcol (i 0)) (i 1)) : S256x8192.Idx → EReal)

/-- What the last point of a grid row writes back is its block of the flattened layer. -/
theorem flushed_eq (c : Dev nD) (t : Fin cfg0.N) (hf : (cfg0.win 7).flush t = true) :
    (dats m 0 c).flushed 7 t = ((cfg0.win 7).blk t).view.read (Elt Ideal) (flat m c) := by
  have h1 : t.val % 8 = 7 := (flush0_7 t).mp hf
  have ht : t.val < 64 := lt_of_lt_of_eq t.isLt (show cfg0.N = 64 from N_0)
  show (cfg0.win 7).cut (grid0.coords t) ((dats m 0 c).after 7 t) = _
  rw [after0_7]
  funext y
  obtain ⟨p, r, rfl⟩ : ∃ (p : Fin 256) (r : Fin 1024), y = ix2 p r := ⟨y 0, y 1, eq_ix2 y⟩
  have he : ((cfg0.win 7).blk t).view.emb (ix2 p r) = ix2 p (rowOf (t.val / 8) r) := by
    funext a
    apply Fin.ext
    match a with
    | ⟨0, _⟩ =>
      show win0_7.index t 0 * 256 + 1 * p.val = p.val
      rw [(index7 t).1]; omega
    | ⟨1, _⟩ =>
      show win0_7.index t 1 * 1024 + 1 * r.val = t.val / 8 % 8 * 1024 + r.val
      rw [(index7 t).2]; omega
  show (outsAt0 m c t.val t.isLt).1 (ix2 p r) = flat m c (((cfg0.win 7).blk t).view.emb (ix2 p r))
  rw [he, out_eq m c t h1 p r]
  rfl

/-- An index of the result array is in point `t`'s block iff each coordinate is in the block's range. -/
theorem mem_blk (t : Fin cfg0.N) (i : S256x8192.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v8).slice (win0_7.rect t)).set ↔ _
  rw [View.set_slice_whole, Rect.mem_set_unit]
  exact Iff.rfl

/-- Every entry of the result array is in the block some grid row writes back: column `k` is in grid row `k / 1024`'s. -/
theorem cover (i : S256x8192.Idx) :
    ∃ t : Fin cfg0.N, (cfg0.win 7).flush t = true ∧ i ∈ ((cfg0.win 7).blk t).view.set := by
  have hi0 : (i 0).val < 256 := (i 0).isLt
  have hi1 : (i 1).val < 8192 := (i 1).isLt
  have hN : cfg0.N = 64 := N_0
  refine ⟨⟨(i 1).val / 1024 * 8 + 7, by rw [hN]; omega⟩, (flush0_7 _).mpr (by show ((i 1).val / 1024 * 8 + 7) % 8 = 7; omega), ?_⟩
  rw [mem_blk]
  intro a
  match a with
  | ⟨0, _⟩ =>
    show win0_7.index ⟨(i 1).val / 1024 * 8 + 7, _⟩ 0 * 256 ≤ (i 0).val ∧ (i 0).val < win0_7.index ⟨(i 1).val / 1024 * 8 + 7, _⟩ 0 * 256 + 256
    rw [(index7 _).1]; omega
  | ⟨1, _⟩ =>
    show win0_7.index ⟨(i 1).val / 1024 * 8 + 7, _⟩ 1 * 1024 ≤ (i 1).val ∧ (i 1).val < win0_7.index ⟨(i 1).val / 1024 * 8 + 7, _⟩ 1 * 1024 + 1024
    rw [(index7 _).2]
    show ((i 1).val / 1024 * 8 + 7) / 8 * 1024 ≤ (i 1).val ∧ (i 1).val < ((i 1).val / 1024 * 8 + 7) / 8 * 1024 + 1024
    omega

/-- After the run the result array holds the flattened layer. -/
theorem final (c : Dev nD) : (dats m 0 c).arrAt 7 cfg0.N = flat m c :=
  (dats m 0 c).arrAt_eq_of_cover 7 (flat m c) (flushed_eq m c) cover

/-- The reshape after the region, of the flattened layer, is the layer. -/
theorem unflatten (c : Dev nD) :
    shapeCast S8x32x8192 (flat m c) shapeCasts_S256x8192_S8x32x8192 = layer m c := by
  funext i
  obtain ⟨b, q, k, rfl⟩ : ∃ (b : Fin 8) (q : Fin 32) (k : Fin 8192), i = ix3 b q k := ⟨i 0, i 1, i 2, eq_ix3 i⟩
  have hb := b.isLt
  have hq := q.isLt
  refine (Cert.LibFlatten.shapeCast_Rc_abc_apply (a := 8) (b := 32) (c := 8192) (R := 256) (flat m c)
    shapeCasts_S256x8192_S8x32x8192 b q k ⟨b.val * 32 + q.val, by omega⟩ rfl).trans ?_
  show layer m c (ix3 (prow ⟨b.val * 32 + q.val, _⟩) (pcol ⟨b.val * 32 + q.val, _⟩) k) = _
  have e1 : prow ⟨b.val * 32 + q.val, by omega⟩ = b := Fin.ext (by show (b.val * 32 + q.val) / 32 = b.val; omega)
  have e2 : pcol ⟨b.val * 32 + q.val, by omega⟩ = q := Fin.ext (by show (b.val * 32 + q.val) % 32 = q.val; omega)
  rw [e1, e2]

/-- What the lines after the region leave in the result: the layer. -/
theorem tail_eq (c : Dev nD) :
    Pipeline.afterTail₀ cfgs (dats m) 0 (V0 m) [hostOps1] c main_v9 = layer m c := by
  unfold Pipeline.afterTail₀
  show StableHlo.after hostOps1 _ (Proc.devRef .tc main_v9) = _
  after_results
  refine Eq.trans ?_ (unflatten m c)
  exact congrArg (fun v => shapeCast S8x32x8192 v shapeCasts_S256x8192_S8x32x8192)
    ((Pipeline.withArrays_arr spec0 launch0.win.arr_inj c _ _ 7).trans (final m c))

/-- The kernel's run: every weakly fair execution terminates with the result at the layer of the argument arrays and
    the arguments unchanged. -/
theorem run : θ_run defs (onTc (τ := τ) (main (F := Ideal))) ⟨m, fun _ => 0, ρ⟩ (fun r => ∀ c : Dev nD,
      r.2.mem ((c.tc : Thread nD τ).loc main_v9) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v9 (Pipeline.mem_restRefs_of main_v9 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.Bridge.KernelRun

end
-- ==== Proof.lean ====
/-
  A linear layer whose weights are stored as integer codes with group-wise scales and zero points, computed by a
  tiled kernel, against the plain formula.

  Both programs compute, over the extended reals,
      out[b, t, k] = Σ_n x[b, t, n] · W[k, n] + bias[k],
      W[k, n] = ((code[k, n] − zero[k, n / 128]) · scale[k, n / 128]) · mu2[k] · mu1[n],
  with the products taken in the same order. The reference forms W whole and contracts over all 8192 columns at
  once. The kernel walks an 8 × 8 grid: grid row i owns outputs i · 1024 … i · 1024 + 1023, grid column j the
  contracted columns j · 1024 … j · 1024 + 1023; at each point it rebuilds that 1024 × 1024 tile of W from the
  tiles of its operands, multiplies the activations' columns of the block by the tile's transpose, and adds the
  product to an accumulator that starts from zero at j = 0; at j = 7 it adds the bias and writes the block out.
  Rounding to a narrower float format before the product is the identity on exact values.

  The two agree because a sum over 8192 columns is the sum of its eight consecutive blocks of 1024, added one after
  the other onto zero: associativity and commutativity of addition and neutrality of zero, which hold for all
  extended reals, so the finiteness of the inputs is never used. Around the kernel the host only re-lays arrays
  (flattening the activations' leading axes and restoring them, dropping unit axes, transposing the per-group
  tables), which moves no value.

  Frames: the two kernel programs' are the generated frame theorems; the reference's is its generated run with the
  result forgotten. The idealization rewrote nothing, so there is nothing to preserve.
-/
import proofs.«171108_j64330020159884_1_alg».proof.Defs
import proofs.«171108_j64330020159884_1_alg».proof.Proof.Gen.Kernel
import proofs.«171108_j64330020159884_1_alg».proof.Proof.Gen.Kernel.Frame
import proofs.«171108_j64330020159884_1_alg».proof.Proof.Gen.KernelIdeal
import proofs.«171108_j64330020159884_1_alg».proof.Proof.Gen.KernelIdeal.Frame
import proofs.«171108_j64330020159884_1_alg».proof.Proof.Gen.ReferenceIdeal
import proofs.«171108_j64330020159884_1_alg».proof.Proof.Gen.ReferenceIdeal.Run
import proofs.«171108_j64330020159884_1_alg».proof.Proof.Gen.ReferenceIdeal.Read
import proofs.«171108_j64330020159884_1_alg».proof.Proof.Gen.Pre_finite_inputs
import proofs.«171108_j64330020159884_1_alg».proof.Proof.RefSide
import proofs.«171108_j64330020159884_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the layer of their argument arrays, and the arrays agree. -/
theorem algebraic : Cert.algebraic_KernelIdeal_ReferenceIdeal := by
  intro m ρ m' ρ' _ hagree
  refine ⟨fun c => Cert.Bridge.KernelRun.layer m c, Cert.Bridge.KernelRun.run m ρ, ?_⟩
  refine (θ_run Cert.ReferenceIdeal.defs _ _).mono (fun _ h c => ⟨(h c).1.trans ?_, (h c).2⟩)
    (Cert.ReferenceIdeal.Value.run (F := Ideal) m' ρ')
  have e : Cert.Bridge.linear (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) = Cert.Bridge.KernelRun.layer m c := by
    rw [(hagree c).1, (hagree c).2.1, (hagree c).2.2.1, (hagree c).2.2.2.1, (hagree c).2.2.2.2.1,
      (hagree c).2.2.2.2.2.1, (hagree c).2.2.2.2.2.2]
  exact (Cert.ReferenceIdeal.Read.val_main_v16_eq _ _ _ _ _ _ _).trans
    ((Cert.Bridge.RefSide.result_eq _ _ _ _ _ _ _).trans e)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
